-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S128x64 .f32) (main_arg3 : FVec F S128 .f32) (main_arg4 : FVec F S1x128 .f32) (main_arg5 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S1x128 : Shape := ⟨2, ![1, 128]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x64 : Shape := ⟨2, ![5000, 64]⟩
abbrev S5000x128 : Shape := ⟨2, ![5000, 128]⟩
abbrev S64x128 : Shape := ⟨2, ![64, 128]⟩
abbrev S1700000x128 : Shape := ⟨2, ![1700000, 128]⟩
abbrev S100000x1 : Shape := ⟨2, ![100000, 1]⟩
abbrev S5000x1 : Shape := ⟨2, ![5000, 1]⟩
abbrev S128x1 : Shape := ⟨2, ![128, 1]⟩
abbrev S1x1 : Shape := ⟨2, ![1, 1]⟩

abbrev nBuf : Space → Nat
  | .hbm => 102
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x1, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000, .f32⟩
  | .hbm, ⟨84, _⟩ => ⟨S1700000, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x1, .f32⟩
  | .hbm, ⟨94, _⟩ => ⟨S1700000x1, .f32⟩
  | .hbm, ⟨95, _⟩ => ⟨S1700000x1, .f32⟩
  | .hbm, ⟨96, _⟩ => ⟨S_, .f32⟩
  | .hbm, ⟨97, _⟩ => ⟨S100000x1, .f32⟩
  | .hbm, ⟨98, _⟩ => ⟨S1700000x1, .i32⟩
  | .hbm, ⟨99, _⟩ => ⟨S100000x1, .f32⟩
  | .hbm, ⟨100, _⟩ => ⟨S1x1, .f32⟩
  | .hbm, ⟨101, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S128x64, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S5000x1, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S1x128_p1_0_S128x1 : S1x128.Transposes [1, 0] S128x1
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  shapeCasts_S1_S1x1 : S1.ShapeCasts S1x1
  shapeCasts_S5000x1_S5000x1 : S5000x1.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1700000x1_S1700000_n_0_0_1_wf : ScatterDims.WF S100000 S1700000x1 S1700000 [] [0] [0] 1
  dot_S5000x64_S64x128_S5000x128_1_0_0_1_n_n_wf : DotDims.WF S5000x64 S64x128 S5000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x1_S5000x1_1_0_0_1_n_n_wf : DotDims.WF S5000x128 S128x1 S5000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x1.size a ≤ S100000x1.size a
  hwx3_0 : ∀ i : grid3.Coords, EltTy.bits .f32 = 32 ∨ (Rect.block (s := S100000x1) S5000x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S5000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S5000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S1x128 : Shape := ⟨2, ![1, 128]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S64x128 : Shape := ⟨2, ![64, 128]⟩
abbrev S100000x128 : Shape := ⟨2, ![100000, 128]⟩
abbrev S1700000x128 : Shape := ⟨2, ![1700000, 128]⟩
abbrev S128x1 : Shape := ⟨2, ![128, 1]⟩
abbrev S100000x1 : Shape := ⟨2, ![100000, 1]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S64x128, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S128x1, .f32⟩
  | .hbm, ⟨71, _⟩ => ⟨S100000x1, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000, .f32⟩
  | .hbm, ⟨90, _⟩ => ⟨S1700000, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x1, .f32⟩
  | .hbm, ⟨100, _⟩ => ⟨S1700000x1, .f32⟩
  | .hbm, ⟨101, _⟩ => ⟨S1700000x1, .f32⟩
  | .hbm, ⟨102, _⟩ => ⟨S_, .f32⟩
  | .hbm, ⟨103, _⟩ => ⟨S100000x1, .f32⟩
  | .hbm, ⟨104, _⟩ => ⟨S1700000x1, .i32⟩
  | .hbm, ⟨105, _⟩ => ⟨S100000x1, .f32⟩
  | .hbm, ⟨106, _⟩ => ⟨S1x1, .f32⟩
  | .hbm, ⟨107, _⟩ => ⟨S100000x1, .f32⟩
  | .hbm, ⟨108, _⟩ => ⟨S100000x1, .f32⟩
  | .hbm, ⟨109, _⟩ => ⟨S100000x1, .f32⟩
  | .hbm, ⟨110, _⟩ => ⟨S100000x1, .f32⟩
  | .hbm, ⟨111, _⟩ => ⟨S_, .f32⟩
  | .hbm, ⟨112, _⟩ => ⟨S100000x1, .f32⟩
  | .hbm, ⟨113, _⟩ => ⟨S100000x1, .f32⟩
  | .hbm, ⟨114, _⟩ => ⟨S_, .f32⟩
  | .hbm, ⟨115, _⟩ => ⟨S100000x1, .f32⟩
  | .hbm, ⟨116, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_16 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x64_S64x128_1_0 : S128x64.Transposes [1, 0] S64x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S1x128_S128x1_1_0 : S1x128.Transposes [1, 0] S128x1
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  dot_S100000x64_S64x128_S100000x128_1_0_0_1_n_n_wf : DotDims.WF S100000x64 S64x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.HostChain.lean ====
/-
  The message passing both programs run on the host, as two functions of the array it is applied to.

  Both programs add the self loops to the edge list, count each node's incoming edges, take the inverse square root of the
  counts, and then, for a node-feature array h: gather h at the edges' sources, scale each gathered row by the product
  of the two endpoints' inverse square roots, and scatter-add the rows at the edges' destinations into zeros. The edge
  list is the only argument these operations read besides h. The two functions below are that chain for a 128-column h
  (layer 1) and for a 1-column h (layer 2), written with the reference's own stages; nothing here opens them.
-/
import proofs.«154057_j25589415150280_1_alg».proof.Proof.RefReadP

noncomputable section

namespace Cert.ReferenceIdeal.HostChain

open Cert.ReferenceIdeal Cert.ReferenceIdeal.ReadP Idealize.ShloMosaic

variable {F : FTy → Type} [FloatOps F]

/-- Layer 1's message passing: the scatter-add, at the destinations, of the gathered and normalised rows of h. -/
def aggregate1 (e : (⟨S2x1600000, .i32⟩ : BufTy).Contents (Elt F)) (h : (⟨S100000x128, .f32⟩ : BufTy).Contents (Elt F)) :
    (⟨S100000x128, .f32⟩ : BufTy).Contents (Elt F) :=
  Host.scatterAdd scatter_S100000x128_S1700000x1_S1700000x128_1_0_0_1 (val_main_v42 (F := F)) (val_main_v43 (F := F) e)
    (mulf (Host.gather gather_S100000x128_S1700000x1_S1700000x128_1_0_n_n_0_1_1128 h (val_main_v37 (F := F) e)) (val_main_v40 (F := F) e))

/-- The reference's aggregated layer-1 array is that chain applied to its dense transform. -/
theorem stage44 (x0 : (⟨S100000x64, .f32⟩ : BufTy).Contents (Elt F)) (e : (⟨S2x1600000, .i32⟩ : BufTy).Contents (Elt F))
    (x2 : (⟨S128x64, .f32⟩ : BufTy).Contents (Elt F)) :
    val_main_v44 (F := F) x0 e x2 = aggregate1 e (val_main_v16 (F := F) x0 x2) := rfl

/-- Layer 2's message passing, on a one-column array. -/
def aggregate2 (e : (⟨S2x1600000, .i32⟩ : BufTy).Contents (Elt F)) (h : (⟨S100000x1, .f32⟩ : BufTy).Contents (Elt F)) :
    (⟨S100000x1, .f32⟩ : BufTy).Contents (Elt F) :=
  Host.scatterAdd scatter_S100000x1_S1700000x1_S1700000x1_1_0_0_1 (val_main_v75 (F := F)) (val_main_v76 (F := F) e)
    (mulf (Host.gather gather_S100000x1_S1700000x1_S1700000x1_1_0_n_n_0_1_11 h (val_main_v71 (F := F) e)) (val_main_v73 (F := F) e))

/-- The reference's aggregated layer-2 array is that chain applied to its second dense transform. -/
theorem stage77 (x0 : (⟨S100000x64, .f32⟩ : BufTy).Contents (Elt F)) (e : (⟨S2x1600000, .i32⟩ : BufTy).Contents (Elt F))
    (x2 : (⟨S128x64, .f32⟩ : BufTy).Contents (Elt F)) (x3 : (⟨S128, .f32⟩ : BufTy).Contents (Elt F))
    (x4 : (⟨S1x128, .f32⟩ : BufTy).Contents (Elt F)) :
    val_main_v77 (F := F) x0 e x2 x3 x4 = aggregate2 e (val_main_v50 (F := F) x0 e x2 x3 x4) := rfl

end Cert.ReferenceIdeal.HostChain

end
-- ==== Proof.Layers.lean ====
/-
  The three node-wise layers of the network, as functions of whole arrays on the extended reals, index by index.
  No program is mentioned here: the kernel's four regions and the reference's host operations are each shown to compute
  these.

  dense: node i, output channel j receives the sum over the input channels k of x[i,k] * w[j,k] (the features times the
  transposed weights). biasMax: a + bias (one row, added to every node's row), then the maximum with the f32 word of
  zero. biasLogistic: the logistic function of a + bias. row: a vector of biases laid out as one row.
-/
import Idealize.ShloMosaic.PureOps.Ideal
import Idealize.ShloMosaic.Lib.ValueIdx

noncomputable section

namespace Cert.Layers

open Idealize.ShloMosaic Idealize.ShloMosaic.ValueIdx

/-- An a-by-b array of extended reals. -/
abbrev Arr (a b : ℕ) : Type := (⟨2, ![a, b]⟩ : Shape).Idx → EReal

/-- Features times transposed weights: entry (i, j) is the sum over k of x[i,k] * w[j,k]. -/
def dense {K B : ℕ} (x : Arr 100000 K) (w : Arr B K) : Arr 100000 B :=
  fun i => ∑ k : Fin K, x (ix2 (n0 := 100000) (i 0) k) * w (ix2 (n0 := B) (i 1) k)

theorem dense_apply {K B : ℕ} (x : Arr 100000 K) (w : Arr B K) (p : Fin 100000) (q : Fin B) :
    dense x w (ix2 p q) = ∑ k : Fin K, x (ix2 p k) * w (ix2 q k) := rfl

/-- A vector of biases as a one-row array. -/
def row {B : ℕ} (b : (⟨1, ![B]⟩ : Shape).Idx → EReal) : Arr 1 B := fun i => b (ix1 (n := B) (i 1))

theorem row_apply {B : ℕ} (b : (⟨1, ![B]⟩ : Shape).Idx → EReal) (u : Fin 1) (q : Fin B) : row b (ix2 u q) = b (ix1 q) := rfl

/-- One row of biases added to every row, then the maximum with zero (the f32 word of zero). -/
def biasMax {B : ℕ} (a : Arr 100000 B) (b : Arr 1 B) : Arr 100000 B :=
  fun i => max (a i + b (ix2 (0 : Fin 1) (n1 := B) (i 1))) (Ideal.ofBits .f32 0x00000000#32)

theorem biasMax_apply {B : ℕ} (a : Arr 100000 B) (b : Arr 1 B) (p : Fin 100000) (q : Fin B) :
    biasMax a b (ix2 p q) = max (a (ix2 p q) + b (ix2 (0 : Fin 1) q)) (Ideal.ofBits .f32 0x00000000#32) := rfl

/-- One row of biases added to every row, then the logistic function. -/
def biasLogistic {B : ℕ} (a : Arr 100000 B) (b : Arr 1 B) : Arr 100000 B :=
  fun i => Ideal.logistic (a i + b (ix2 (0 : Fin 1) (n1 := B) (i 1)))

theorem biasLogistic_apply {B : ℕ} (a : Arr 100000 B) (b : Arr 1 B) (p : Fin 100000) (q : Fin B) :
    biasLogistic a b (ix2 p q) = Ideal.logistic (a (ix2 p q) + b (ix2 (0 : Fin 1) q)) := rfl

end Cert.Layers

end
-- ==== Proof.LibColRowSigmoid.lean ====
/-
  General facts about no program in particular (this file imports only the library and can be copied unchanged).
  shapeCast_col_row_apply: a column [n,1] shape-cast to a row [1,n], read at (u,k), is the column's entry (k,v) — both sit
  at position k of the row-major order (the column-to-row form missing from Lib/ValueLayout). one_word: on the extended
  reals the f32 word 0x3F800000 is the number one. sigmoid_expanded: the host's spelling of the sigmoid,
  hostDivf 1 (addf 1 (exp (hostNegf x))) with the ones written as that word, is Ideal.logistic x, the function a kernel's
  logistic operation denotes.
-/
import Idealize.ShloMosaic.PureOps.Ideal
import Idealize.ShloMosaic.Lib.Pipeline.Value
import Idealize.ShloMosaic.Lib.ValueIdx
import Idealize.ShloMosaic.Lib.ValueLayout

noncomputable section

namespace Cert.Bridge.Layout

open Idealize.ShloMosaic Idealize.ShloMosaic.ValueIdx

variable {α : Type}

/-- A column `[n, 1]` cast to a row `[1, n]` reads, at `(u, k)`, the column's entry `(k, v)`: both are at row-major
    position `k`. -/
theorem shapeCast_col_row_apply {n : ℕ} (x : (⟨2, ![n, 1]⟩ : Shape).Idx → α) (h : (⟨2, ![n, 1]⟩ : Shape).ShapeCasts ⟨2, ![1, n]⟩)
    (u v : Fin 1) (k : Fin n) : shapeCast ⟨2, ![1, n]⟩ x h (ix2 u k) = x (ix2 k v) :=
  shapeCast_apply x h _ _ (by
    have hu : u.val = 0 := by omega
    have hv : v.val = 0 := by omega
    rw [Shape.rowMajor_val_two, Shape.rowMajor_val_two]
    show k.val * 1 + v.val = u.val * n + k.val
    rw [hu, hv, Nat.zero_mul, Nat.zero_add, Nat.mul_one, Nat.add_zero])

/-- The float word `0x3F800000` is the number one. -/
theorem one_word : Ideal.ofBits .f32 0x3F800000#32 = 1 := by
  simp [Ideal.ofBits, Ideal.ieee, -EReal.coe_mul]; norm_num

/-- The host's spelling of the sigmoid — one over one plus the exponential of the negated argument, the ones being the
    float word for one — is the logistic function. -/
theorem sigmoid_expanded (x : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf x)))
      = Ideal.logistic x := by
  rw [Ideal.ofBits_def, one_word]
  rfl

end Cert.Bridge.Layout

end
-- ==== Proof.RefLayers.lean ====
/-
  The reference's result is the network's layers applied around the host message passing.

  Stage by stage: the reference's first dot product (the features against the transposed weights) is the dense layer;
  adding the broadcast bias and taking the maximum with a broadcast zero is the bias layer; the second dot product is the
  dense layer again; and the host's spelling of the sigmoid, one over one plus the exponential of the negated argument,
  applied to the aggregated column plus the broadcast bias, is the logistic bias layer. Between them sit the two message
  passing chains, which are carried as they are.
-/
import proofs.«154057_j25589415150280_1_alg».proof.Proof.RefReadP
import proofs.«154057_j25589415150280_1_alg».proof.Proof.HostChain
import proofs.«154057_j25589415150280_1_alg».proof.Proof.Layers
import proofs.«154057_j25589415150280_1_alg».proof.Proof.LibColRowSigmoid

noncomputable section

namespace Cert.ReferenceIdeal.Layered

open Cert.ReferenceIdeal Cert.ReferenceIdeal.ReadP Cert.ReferenceIdeal.HostChain
open Idealize.ShloMosaic Idealize.ShloMosaic.ValueIdx

variable (x0 : (⟨S100000x64, .f32⟩ : BufTy).Contents (Elt Ideal)) (e : (⟨S2x1600000, .i32⟩ : BufTy).Contents (Elt Ideal))
  (x2 : (⟨S128x64, .f32⟩ : BufTy).Contents (Elt Ideal)) (x3 : (⟨S128, .f32⟩ : BufTy).Contents (Elt Ideal))
  (x4 : (⟨S1x128, .f32⟩ : BufTy).Contents (Elt Ideal)) (x5 : (⟨S1, .f32⟩ : BufTy).Contents (Elt Ideal))

/-- The first dot product, against the transposed weights, is the dense layer: entry (p, q) sums x[p,k] * w[q,k]. -/
theorem dense1_eq : val_main_v16 (F := Ideal) x0 x2 = Cert.Layers.dense (K := 64) (B := 128) x0 x2 := by
  funext i
  obtain ⟨p, q, rfl⟩ : ∃ (p : Fin 100000) (q : Fin 128), i = ix2 p q := ⟨i 0, i 1, eq_ix2 i⟩
  rw [val_main_v16_apply, Cert.Layers.dense_apply]
  refine Finset.sum_congr rfl fun k _ => ?_
  rw [val_main_v15_apply]
  have el : lidx_main_v16 (ix2 p q) k = ix2 p k :=
    funext fun a => Fin.ext (by match a with | ⟨0, _⟩ => rfl | ⟨1, _⟩ => rfl)
  have er : idx_main_v15 (ridx_main_v16 (ix2 p q) k) = ix2 q k :=
    funext fun a => Fin.ext (by match a with | ⟨0, _⟩ => rfl | ⟨1, _⟩ => rfl)
  rw [el, er]

/-- Adding the bias broadcast over the rows and taking the maximum with the broadcast zero is the bias layer. -/
theorem relu_eq : val_main_v48 (F := Ideal) x0 e x2 x3
    = Cert.Layers.biasMax (B := 128) (val_main_v44 (F := Ideal) x0 e x2) (Cert.Layers.row x3) := by
  funext i
  obtain ⟨p, q, rfl⟩ : ∃ (p : Fin 100000) (q : Fin 128), i = ix2 p q := ⟨i 0, i 1, eq_ix2 i⟩
  rw [val_main_v48_apply, val_main_v47_apply, val_main_v46_apply, val_main_v45_apply, val_main_call1_v0_apply,
    val_main_call1_cst_apply, Cert.Layers.biasMax_apply, Cert.Layers.row_apply]
  have e3 : idx_main_v45 (idx_main_v46 (ix2 p q)) = ix1 q :=
    funext fun a => Fin.ext (by match a with | ⟨0, _⟩ => rfl)
  rw [e3]
  rfl

/-- The second dot product, against the transposed one-row weights, is the dense layer with one output column. -/
theorem dense2_eq : val_main_v50 (F := Ideal) x0 e x2 x3 x4
    = Cert.Layers.dense (K := 128) (B := 1) (val_main_v48 (F := Ideal) x0 e x2 x3) x4 := by
  funext i
  obtain ⟨p, q, rfl⟩ : ∃ (p : Fin 100000) (q : Fin 1), i = ix2 p q := ⟨i 0, i 1, eq_ix2 i⟩
  rw [val_main_v50_apply, Cert.Layers.dense_apply]
  refine Finset.sum_congr rfl fun k _ => ?_
  rw [val_main_v49_apply]
  have el : lidx_main_v50 (ix2 p q) k = ix2 p k :=
    funext fun a => Fin.ext (by match a with | ⟨0, _⟩ => rfl | ⟨1, _⟩ => rfl)
  have er : idx_main_v49 (ridx_main_v50 (ix2 p q) k) = ix2 q k :=
    funext fun a => Fin.ext (by match a with | ⟨0, _⟩ => rfl | ⟨1, _⟩ => rfl)
  rw [el, er]

/-- One over one plus the exponential of minus (the aggregated column plus the broadcast bias) is the logistic bias
    layer: the host's spelling of the sigmoid is the logistic function on every extended real. -/
theorem sigmoid_eq : val_main_v86 (F := Ideal) x0 e x2 x3 x4 x5
    = Cert.Layers.biasLogistic (B := 1) (val_main_v77 (F := Ideal) x0 e x2 x3 x4) (Cert.Layers.row x5) := by
  funext i
  obtain ⟨p, q, rfl⟩ : ∃ (p : Fin 100000) (q : Fin 1), i = ix2 p q := ⟨i 0, i 1, eq_ix2 i⟩
  rw [val_main_v86_apply, val_main_v85_apply, val_main_cst_17_apply, val_main_v84_apply, val_main_v83_apply,
    val_main_cst_16_apply, val_main_v82_apply, val_main_v81_apply, val_main_v80_apply, val_main_v79_apply,
    val_main_v78_apply, Cert.Layers.biasLogistic_apply, Cert.Layers.row_apply]
  have e5 : idx_main_v78 (idx_main_v79 (ix2 p q)) = ix1 q :=
    funext fun a => Fin.ext (by match a with | ⟨0, _⟩ => show 0 = q.val; have := q.isLt; omega)
  rw [e5]
  exact Cert.Bridge.Layout.sigmoid_expanded _

/-- The reference's result: dense, message passing, bias and maximum, dense, message passing, bias and logistic. -/
theorem value_eq : val_main_v86 (F := Ideal) x0 e x2 x3 x4 x5
    = Cert.Layers.biasLogistic (B := 1)
        (aggregate2 e (Cert.Layers.dense (K := 128) (B := 1)
          (Cert.Layers.biasMax (B := 128) (aggregate1 e (Cert.Layers.dense (K := 64) (B := 128) x0 x2)) (Cert.Layers.row x3)) x4))
        (Cert.Layers.row x5) := by
  rw [sigmoid_eq, stage77, dense2_eq, relu_eq, stage44, dense1_eq]

end Cert.ReferenceIdeal.Layered

end
-- ==== Proof.ResultRun.lean ====
/-
  The kernel program's run with its result kept.

  The program is four pipelined regions among stretches of host operations. Every weakly fair execution from any memory
  with zero counters terminates without a fault, and in the final state every unscoped buffer of the TensorCore holds
  the contents the fold through the program gives it at the last boundary (after region 3). So the result buffer — the
  array region 3 writes back — ends at that fold's value, and the six argument arrays end as launched.
-/
import proofs.«154057_j25589415150280_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the six arguments as launched: the launch over the program's eight segments, the last thread
    state (every unscoped buffer at the contents after region 3) read against the final state. -/
theorem run_result : θ_run defs (onTc (τ := τ) (main (F := F))) ⟨m, fun _ => 0, ρ⟩ (fun r => ∀ c : Dev nD,
      r.2.mem ((c.tc : Thread nD τ).loc main_v75) = W8 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v75 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.ResultRun

end
-- ==== Proof.LibMatmulPlain.lean ====
/-
  A plain matrix product at the exact instance, read at an entry.

  For an `A × K` left operand and a `K × B` right operand contracted over the shared axis, accumulated into the zero
  matrix, the entry at `(a, b)` is the sum over `k` of `l[a,k] · r[k,b]`: on the extended reals the product is the
  exact sum, with no rounding and no order of accumulation left in it.
-/
import Idealize.ShloMosaic.Lib.ValueIdx
import Idealize.ShloMosaic.PureOps.Ideal.Laws

noncomputable section

namespace Cert.Lib.MatmulPlain

open Idealize.ShloMosaic Idealize.ShloMosaic.ValueIdx

variable {A K B : ℕ} {φ₁ φ₂ : FTy}

theorem lhs_row (j : (⟨2, ![A, B]⟩ : Shape).Idx) (q : (DotDims.plain A K B).contr.Idx) :
    ((DotDims.plain A K B).lhsIdx j q 0).val = (j 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.mpr rfl)]
  rfl

theorem lhs_col (j : (⟨2, ![A, B]⟩ : Shape).Idx) (q : (DotDims.plain A K B).contr.Idx) :
    ((DotDims.plain A K B).lhsIdx j q 1).val = (q ⟨0, Nat.one_pos⟩).val :=
  (DotDims.plain A K B).lhsIdx_val_of_single rfl j q

theorem rhs_row (j : (⟨2, ![A, B]⟩ : Shape).Idx) (q : (DotDims.plain A K B).contr.Idx) :
    ((DotDims.plain A K B).rhsIdx j q 0).val = (q ⟨0, Nat.one_pos⟩).val :=
  (DotDims.plain A K B).rhsIdx_val_of_single rfl j q

theorem rhs_col (j : (⟨2, ![A, B]⟩ : Shape).Idx) (q : (DotDims.plain A K B).contr.Idx) :
    ((DotDims.plain A K B).rhsIdx j q 1).val = (j 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.mpr rfl)]
  rfl

/-- The `(a, b)` entry of an `A × K` by `K × B` product accumulated into zero is `∑ k, l[a,k] · r[k,b]`. -/
theorem matmul_plain_zero_apply (prec : Option ContractPrecision) (l : FVec Ideal ⟨2, ![A, K]⟩ φ₁)
    (r : FVec Ideal ⟨2, ![K, B]⟩ φ₂) (a : Fin A) (b : Fin B) :
    FloatOps.matmul (DotDims.plain A K B) prec l r (constant ⟨2, ![A, B]⟩ .f32 0x00000000#32) (ix2 a b)
      = ∑ k : Fin K, l (ix2 a k) * r (ix2 k b) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun x => Fin.ext (by
      match x with
      | ⟨0, _⟩ => exact lhs_row _ _
      | ⟨1, _⟩ => exact (lhs_col _ _).trans hk)
  have er : (DotDims.plain A K B).rhsIdx (ix2 a b) ((contrEquiv1 (DotDims.plain A K B) K rfl rfl).symm k) = ix2 k b :=
    funext fun x => Fin.ext (by
      match x with
      | ⟨0, _⟩ => exact (rhs_row _ _).trans hk
      | ⟨1, _⟩ => exact rhs_col _ _)
  rw [el, er]

end Cert.Lib.MatmulPlain

end
-- ==== Proof.BodyValues.lean ====
/-
  What each of the four kernel bodies stores, read at one entry, on the extended reals.

  The two linear bodies store a block of rows times the transposed weight matrix, accumulated into zero: entry (a, b)
  is the dot product of row a of the block with row b of the weights (the rounding of both operands to bf16 is the
  identity on the extended reals). The first bias body stores max(x + bias, 0), the bias being one row added to every
  row of the block; the second stores the logistic function of x + bias.
-/
import proofs.«154057_j25589415150280_1_alg».proof.Proof.Gen.KernelIdeal.Skeleton
import proofs.«154057_j25589415150280_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValues

open Cert.KernelIdeal Cert.KernelIdeal.Gen Idealize.ShloMosaic Idealize.ShloMosaic.ValueIdx

/-- The first linear body: entry (a, b) of the stored block is the sum over the 64 input channels of the block's row a
    times the weights' row b. -/
theorem linear1_apply (x0 : Vec Ideal S5000x64 .f32) (x1 : Vec Ideal S128x64 .f32) (a : Fin 5000) (b : Fin 128) :
    k0_pay1 (F := Ideal) x0 x1 (ix2 a b) = ∑ k : Fin 64, x0 (ix2 a k) * x1 (ix2 b k) := by
  unfold k0_pay1
  refine (Cert.Lib.MatmulPlain.matmul_plain_zero_apply (A := 5000) (K := 64) (B := 128) none _ _ a b).trans ?_
  refine Finset.sum_congr rfl fun k _ => ?_
  exact congrArg (fun z => x0 (ix2 a k) * z) (transpose_ix2_apply (a := 128) (b := 64) x1 _ k b)

/-- The second linear body: entry (a, 0) of the stored column is the sum over the 128 hidden channels of the block's
    row a times the one row of weights. -/
theorem linear2_apply (x0 : Vec Ideal S5000x128 .f32) (x1 : Vec Ideal S1x128 .f32) (a : Fin 5000) (b : Fin 1) :
    k2_pay1 (F := Ideal) x0 x1 (ix2 a b) = ∑ k : Fin 128, x0 (ix2 a k) * x1 (ix2 b k) := by
  unfold k2_pay1
  refine (Cert.Lib.MatmulPlain.matmul_plain_zero_apply (A := 5000) (K := 128) (B := 1) none _ _ a b).trans ?_
  refine Finset.sum_congr rfl fun k _ => ?_
  have e0 : shapeCast S5000x128 x0 shapeCasts_S5000x128_S5000x128 = x0 := shapeCast_self _ _
  show shapeCast S5000x128 x0 shapeCasts_S5000x128_S5000x128 (ix2 a k) * _ = _
  rw [e0]
  exact congrArg (fun z => x0 (ix2 a k) * z) (transpose_ix2_apply (a := 1) (b := 128) x1 _ k b)

/-- The first bias body: entry (a, b) of the stored block is max(x[a,b] + bias[0,b], 0), the zero being the f32 word
    of zero. -/
theorem biasMax_apply (x0 : Vec Ideal S5000x128 .f32) (x1 : Vec Ideal S1x128 .f32) (a : Fin 5000) (b : Fin 128) :
    k1_pay1 (F := Ideal) x0 x1 (ix2 a b)
      = max (x0 (ix2 a b) + x1 (ix2 (0 : Fin 1) b)) (Ideal.ofBits .f32 0x00000000#32) := by
  unfold k1_pay1
  have e0 : shapeCast S5000x128 x0 shapeCasts_S5000x128_S5000x128 = x0 := shapeCast_self _ _
  have e1 : shapeCast S1x128 x1 shapeCasts_S1x128_S1x128 = x1 := shapeCast_self _ _
  show max (shapeCast S5000x128 x0 shapeCasts_S5000x128_S5000x128 (ix2 a b)
      + broadcastTo S5000x128 (shapeCast S1x128 x1 shapeCasts_S1x128_S1x128) broadcasts_S1x128_S5000x128 (ix2 a b))
    (Ideal.ofBits .f32 0x00000000#32) = _
  rw [e0, e1, broadcastTo_1b_ab_apply (a := 5000) (b := 128) x1 _ a b]

/-- The second bias body: entry (a, 0) of the stored column is the logistic function of x[a,0] + bias[0,0]. -/
theorem biasLogistic_apply (x0 : Vec Ideal S5000x1 .f32) (x1 : Vec Ideal S1x1 .f32) (a : Fin 5000) (b : Fin 1) :
    k3_pay1 (F := Ideal) x0 x1 (ix2 a b) = Ideal.logistic (x0 (ix2 a b) + x1 (ix2 (0 : Fin 1) b)) := by
  unfold k3_pay1
  have e0 : shapeCast S5000x1 x0 shapeCasts_S5000x1_S5000x1 = x0 := shapeCast_self _ _
  have e1 : shapeCast S1x1 x1 shapeCasts_S1x1_S1x1 = x1 := shapeCast_self _ _
  show Ideal.logistic (shapeCast S5000x1 x0 shapeCasts_S5000x1_S5000x1 (ix2 a b)
      + broadcastTo S5000x1 (shapeCast S1x1 x1 shapeCasts_S1x1_S1x1) broadcasts_S1x1_S5000x1 (ix2 a b)) = _
  rw [e0, e1, broadcastTo_1b_ab_apply (a := 5000) (b := 1) x1 _ a b]

end Cert.KernelIdeal.BodyValues

end
-- ==== Proof.Region0.lean ====
/-
  Region 0 (the first dense transform), from blocks to the whole array.

  The grid has 20 points; point t fetches rows 5000 t … 5000 t + 4999 of the features (all 64 columns), the whole weight
  matrix, and writes back rows 5000 t … 5000 t + 4999 of the output (all 128 columns). What the body stores at point t is,
  entry by entry, the dense transform of the whole arrays read at the block's position; the 20 blocks cover the output.
  So whatever the buffers hold when the region is entered, its output array ends at the dense transform of the features
  and the weights found there.
-/
import proofs.«154057_j25589415150280_1_alg».proof.Proof.Gen.KernelIdeal.Frame
import proofs.«154057_j25589415150280_1_alg».proof.Proof.BodyValues
import proofs.«154057_j25589415150280_1_alg».proof.Proof.Layers
import Idealize.ShloMosaic.Lib.Pipeline.Value

set_option maxRecDepth 16384

noncomputable section

namespace Cert.KernelIdeal.Region0

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the features' and the output's block row is the grid point; every other block
    index is zero. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the dense transform of the arrays the region finds. -/
theorem flushed_eq (c : Dev nD) (t : Fin cfg0.N) :
    (dat0 V c).flushed 2 t
      = ((cfg0.win 2).blk t).view.read (Elt Ideal) (Cert.Layers.dense (K := 64) (B := 128) (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x64) zero_offsets, View.ld_unit_zero (S := S128x64) zero_offsets]
  obtain ⟨e00, e01, e10, e11, e20, e21⟩ := index_maps t
  funext j
  obtain ⟨a, b, rfl⟩ : ∃ (a : Fin 5000) (b : Fin 128), j = ix2 a b := ⟨j 0, j 1, eq_ix2 j⟩
  refine (BodyValues.linear1_apply (iblk0 V c 0 t) (iblk0 V c 1 t) a b).trans ?_
  have ht : t.val < 20 := lt_of_lt_of_eq t.isLt N_0
  have hr : t.val * 5000 + a.val < 100000 := by have := a.isLt; omega
  have E2 : ((cfg0.win 2).blk t).view.emb (ix2 a b) = ix2 (⟨t.val * 5000 + a.val, hr⟩ : Fin 100000) b := by
    funext d; apply Fin.ext
    match d with
    | ⟨0, _⟩ => show win0_2.index t (0 : Fin 2) * 5000 + 1 * a.val = t.val * 5000 + a.val; omega
    | ⟨1, _⟩ => show win0_2.index t (1 : Fin 2) * 128 + 1 * b.val = b.val; omega
  have E0 (k : Fin 64) : ((cfg0.win 0).blk t).view.emb (ix2 a k) = ix2 (⟨t.val * 5000 + a.val, hr⟩ : Fin 100000) k := by
    funext d; apply Fin.ext
    match d with
    | ⟨0, _⟩ => show win0_0.index t (0 : Fin 2) * 5000 + 1 * a.val = t.val * 5000 + a.val; omega
    | ⟨1, _⟩ => show win0_0.index t (1 : Fin 2) * 64 + 1 * k.val = k.val; omega
  have E1 (k : Fin 64) : ((cfg0.win 1).blk t).view.emb (ix2 b k) = ix2 b k := by
    funext d; apply Fin.ext
    match d with
    | ⟨0, _⟩ => show win0_1.index t (0 : Fin 2) * 128 + 1 * b.val = b.val; omega
    | ⟨1, _⟩ => show win0_1.index t (1 : Fin 2) * 64 + 1 * k.val = k.val; omega
  have key : ∀ (X : S100000x64.Idx → EReal) (W : S128x64.Idx → EReal),
      ∑ k : Fin 64, X (((cfg0.win 0).blk t).view.emb (ix2 a k)) * W (((cfg0.win 1).blk t).view.emb (ix2 b k))
        = Cert.Layers.dense (K := 64) (B := 128) X W (((cfg0.win 2).blk t).view.emb (ix2 a b)) := by
    intro X W
    rw [E2, Cert.Layers.dense_apply]
    exact Finset.sum_congr rfl fun k _ => by rw [E0 k, E1 k]
  exact key (V c main_arg0) (V c main_arg2)

/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v15).slice (win0_2.rect t)).set ↔ _
  rw [View.set_slice_whole, Rect.mem_set_unit]
  exact Iff.rfl

/-- Every index of the output array lies in the block of the point that owns its row: row r belongs to point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hq : (i 0).val / 5000 < grid0.N := by rw [N_0]; omega
  refine ⟨⟨(i 0).val / 5000, hq⟩, flush0_2 _, ?_⟩
  obtain ⟨-, -, -, -, e20, e21⟩ := index_maps ⟨(i 0).val / 5000, hq⟩
  rw [mem_blk]
  intro a
  match a with
  | ⟨0, _⟩ =>
    show win0_2.index ⟨(i 0).val / 5000, hq⟩ (0 : Fin 2) * 5000 ≤ (i 0).val
      ∧ (i 0).val < win0_2.index ⟨(i 0).val / 5000, hq⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hq⟩ (1 : Fin 2) * 128 ≤ (i 1).val
      ∧ (i 1).val < win0_2.index ⟨(i 0).val / 5000, hq⟩ (1 : Fin 2) * 128 + 128
    rw [e21]; omega

/-- The output array after region 0, whatever the buffers held at its entry: the dense transform of the features and the
    weights found there. -/
theorem array_eq (c : Dev nD) :
    (dat0 V c).arrAt 2 cfg0.N = Cert.Layers.dense (K := 64) (B := 128) (V c main_arg0) (V c main_arg2) :=
  (dat0 V c).arrAt_eq_of_cover 2 _ (fun t _ => flushed_eq V c t) cover

end Cert.KernelIdeal.Region0

end
-- ==== Proof.Region1.lean ====
/-
  Region 1 (bias and maximum with zero), from blocks to the whole array.

  The grid has 20 points; point t fetches rows 5000 t … 5000 t + 4999 of the aggregated array (all 128 columns) and the one
  row of biases, and writes back the same rows of the output. What the body stores at point t is, entry by entry, the
  aggregated entry plus its column's bias, then the maximum with zero; the 20 blocks cover the output. So whatever the
  buffers hold when the region is entered, its output array ends at that bias layer of the two arrays found there.
-/
import proofs.«154057_j25589415150280_1_alg».proof.Proof.Gen.KernelIdeal.Frame
import proofs.«154057_j25589415150280_1_alg».proof.Proof.BodyValues
import proofs.«154057_j25589415150280_1_alg».proof.Proof.Layers
import Idealize.ShloMosaic.Lib.Pipeline.Value

set_option maxRecDepth 16384

noncomputable section

namespace Cert.KernelIdeal.Region1

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the first input's and the output's block row is the grid point; every other
    block index is zero. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the bias layer of the arrays the region finds. -/
theorem flushed_eq (c : Dev nD) (t : Fin cfg1.N) :
    (dat1 V c).flushed 2 t = ((cfg1.win 2).blk t).view.read (Elt Ideal) (Cert.Layers.biasMax (V c main_v43) (V c main_v44)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e00, e01, e10, e11, e20, e21⟩ := index_maps t
  funext j
  obtain ⟨a, b, rfl⟩ : ∃ (a : Fin 5000) (b : Fin 128), j = ix2 a b := ⟨j 0, j 1, eq_ix2 j⟩
  refine (BodyValues.biasMax_apply (iblk1 V c 0 t) (iblk1 V c 1 t) a b).trans ?_
  have ht : t.val < 20 := lt_of_lt_of_eq t.isLt N_1
  have hr : t.val * 5000 + a.val < 100000 := by have := a.isLt; omega
  have E2 : ((cfg1.win 2).blk t).view.emb (ix2 a b) = ix2 (⟨t.val * 5000 + a.val, hr⟩ : Fin 100000) b := by
    funext d; apply Fin.ext
    match d with
    | ⟨0, _⟩ => show win1_2.index t (0 : Fin 2) * 5000 + 1 * a.val = t.val * 5000 + a.val; omega
    | ⟨1, _⟩ => show win1_2.index t (1 : Fin 2) * 128 + 1 * b.val = b.val; omega
  have E0 : ((cfg1.win 0).blk t).view.emb (ix2 a b) = ix2 (⟨t.val * 5000 + a.val, hr⟩ : Fin 100000) b := by
    funext d; apply Fin.ext
    match d with
    | ⟨0, _⟩ => show win1_0.index t (0 : Fin 2) * 5000 + 1 * a.val = t.val * 5000 + a.val; omega
    | ⟨1, _⟩ => show win1_0.index t (1 : Fin 2) * 128 + 1 * b.val = b.val; omega
  have E1 : ((cfg1.win 1).blk t).view.emb (ix2 (0 : Fin 1) b) = ix2 (0 : Fin 1) b := by
    funext d; apply Fin.ext
    match d with
    | ⟨0, _⟩ => show win1_1.index t (0 : Fin 2) * 1 + 1 * 0 = 0; omega
    | ⟨1, _⟩ => show win1_1.index t (1 : Fin 2) * 128 + 1 * b.val = b.val; omega
  have key : ∀ (X : S100000x128.Idx → EReal) (Bv : S1x128.Idx → EReal),
      max (X (((cfg1.win 0).blk t).view.emb (ix2 a b)) + Bv (((cfg1.win 1).blk t).view.emb (ix2 (0 : Fin 1) b))) (Ideal.ofBits .f32 0x00000000#32)
        = Cert.Layers.biasMax X Bv (((cfg1.win 2).blk t).view.emb (ix2 a b)) := by
    intro X Bv
    rw [E2, Cert.Layers.biasMax_apply, E0, E1]
  exact key (V c main_v43) (V c main_v44)

/-- An index of the output array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Every index of the output array lies in the block of the point that owns its row: row r belongs to point r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hq : (i 0).val / 5000 < grid1.N := by rw [N_1]; omega
  refine ⟨⟨(i 0).val / 5000, hq⟩, flush1_2 _, ?_⟩
  obtain ⟨-, -, -, -, e20, e21⟩ := index_maps ⟨(i 0).val / 5000, hq⟩
  rw [mem_blk]
  intro a
  match a with
  | ⟨0, _⟩ =>
    show win1_2.index ⟨(i 0).val / 5000, hq⟩ (0 : Fin 2) * 5000 ≤ (i 0).val
      ∧ (i 0).val < win1_2.index ⟨(i 0).val / 5000, hq⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, hq⟩ (1 : Fin 2) * 128 ≤ (i 1).val
      ∧ (i 1).val < win1_2.index ⟨(i 0).val / 5000, hq⟩ (1 : Fin 2) * 128 + 128
    rw [e21]; omega

/-- The output array after region 1, whatever the buffers held at its entry: the aggregated array found there plus
    the bias row found there, then the maximum with zero. -/
theorem array_eq (c : Dev nD) :
    (dat1 V c).arrAt 2 cfg1.N = Cert.Layers.biasMax (V c main_v43) (V c main_v44) :=
  (dat1 V c).arrAt_eq_of_cover 2 _ (fun t _ => flushed_eq V c t) cover

end Cert.KernelIdeal.Region1

end
-- ==== Proof.Region2.lean ====
/-
  Region 2 (the second dense transform), from blocks to the whole array.

  The grid has 20 points; point t fetches rows 5000 t … 5000 t + 4999 of the hidden features (all 128 columns), the one
  row of weights, and writes back the same rows of the one-column output. What the body stores at point t is, entry by
  entry, the dense transform of the whole arrays read at the block's position; the 20 blocks cover the output. So whatever
  the buffers hold when the region is entered, its output array ends at the dense transform of the hidden features and
  the weights found there.
-/
import proofs.«154057_j25589415150280_1_alg».proof.Proof.Gen.KernelIdeal.Frame
import proofs.«154057_j25589415150280_1_alg».proof.Proof.BodyValues
import proofs.«154057_j25589415150280_1_alg».proof.Proof.Layers
import Idealize.ShloMosaic.Lib.Pipeline.Value

set_option maxRecDepth 16384

noncomputable section

namespace Cert.KernelIdeal.Region2

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the first input's and the output's block row is the grid point; every other
    block index is zero. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the dense transform of the arrays the region finds. -/
theorem flushed_eq (c : Dev nD) (t : Fin cfg2.N) :
    (dat2 V c).flushed 2 t = ((cfg2.win 2).blk t).view.read (Elt Ideal) (Cert.Layers.dense (K := 128) (B := 1) (V c main_v45) (V c main_arg4)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S1x128) zero_offsets]
  obtain ⟨e00, e01, e10, e11, e20, e21⟩ := index_maps t
  funext j
  obtain ⟨a, b, rfl⟩ : ∃ (a : Fin 5000) (b : Fin 1), j = ix2 a b := ⟨j 0, j 1, eq_ix2 j⟩
  refine (BodyValues.linear2_apply (iblk2 V c 0 t) (iblk2 V c 1 t) a b).trans ?_
  have ht : t.val < 20 := lt_of_lt_of_eq t.isLt N_2
  have hr : t.val * 5000 + a.val < 100000 := by have := a.isLt; omega
  have E2 : ((cfg2.win 2).blk t).view.emb (ix2 a b) = ix2 (⟨t.val * 5000 + a.val, hr⟩ : Fin 100000) b := by
    funext d; apply Fin.ext
    match d with
    | ⟨0, _⟩ => show win2_2.index t (0 : Fin 2) * 5000 + 1 * a.val = t.val * 5000 + a.val; omega
    | ⟨1, _⟩ => show win2_2.index t (1 : Fin 2) * 1 + 1 * b.val = b.val; omega
  have E0 (k : Fin 128) : ((cfg2.win 0).blk t).view.emb (ix2 a k) = ix2 (⟨t.val * 5000 + a.val, hr⟩ : Fin 100000) k := by
    funext d; apply Fin.ext
    match d with
    | ⟨0, _⟩ => show win2_0.index t (0 : Fin 2) * 5000 + 1 * a.val = t.val * 5000 + a.val; omega
    | ⟨1, _⟩ => show win2_0.index t (1 : Fin 2) * 128 + 1 * k.val = k.val; omega
  have E1 (k : Fin 128) : ((cfg2.win 1).blk t).view.emb (ix2 b k) = ix2 b k := by
    funext d; apply Fin.ext
    match d with
    | ⟨0, _⟩ => show win2_1.index t (0 : Fin 2) * 1 + 1 * b.val = b.val; omega
    | ⟨1, _⟩ => show win2_1.index t (1 : Fin 2) * 128 + 1 * k.val = k.val; omega
  have key : ∀ (X : S100000x128.Idx → EReal) (W : S1x128.Idx → EReal),
      ∑ k : Fin 128, X (((cfg2.win 0).blk t).view.emb (ix2 a k)) * W (((cfg2.win 1).blk t).view.emb (ix2 b k))
        = Cert.Layers.dense (K := 128) (B := 1) X W (((cfg2.win 2).blk t).view.emb (ix2 a b)) := by
    intro X W
    rw [E2, Cert.Layers.dense_apply]
    exact Finset.sum_congr rfl fun k _ => by rw [E0 k, E1 k]
  exact key (V c main_v45) (V c main_arg4)

/-- An index of the output array is in point t's block iff each coordinate is in the block's range on its axis. -/
theorem mem_blk (t : Fin cfg2.N) (i : S100000x1.Idx) :
    i ∈ ((cfg2.win 2).blk t).view.set ↔ ∀ a : Fin 2, win2_2.index t a * S5000x1.size a ≤ (i a).val
      ∧ (i a).val < win2_2.index t a * S5000x1.size a + S5000x1.size a := by
  show i ∈ ((View.whole main_v46).slice (win2_2.rect t)).set ↔ _
  rw [View.set_slice_whole, Rect.mem_set_unit]
  exact Iff.rfl

/-- Every index of the output array lies in the block of the point that owns its row: row r belongs to point r / 5000. -/
theorem cover (i : S100000x1.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  have hq : (i 0).val / 5000 < grid2.N := by rw [N_2]; omega
  refine ⟨⟨(i 0).val / 5000, hq⟩, flush2_2 _, ?_⟩
  obtain ⟨-, -, -, -, e20, e21⟩ := index_maps ⟨(i 0).val / 5000, hq⟩
  rw [mem_blk]
  intro a
  match a with
  | ⟨0, _⟩ =>
    show win2_2.index ⟨(i 0).val / 5000, hq⟩ (0 : Fin 2) * 5000 ≤ (i 0).val
      ∧ (i 0).val < win2_2.index ⟨(i 0).val / 5000, hq⟩ (0 : Fin 2) * 5000 + 5000
    rw [e20]; show (i 0).val / 5000 * 5000 ≤ (i 0).val ∧ (i 0).val < (i 0).val / 5000 * 5000 + 5000; omega
  | ⟨1, _⟩ =>
    show win2_2.index ⟨(i 0).val / 5000, hq⟩ (1 : Fin 2) * 1 ≤ (i 1).val
      ∧ (i 1).val < win2_2.index ⟨(i 0).val / 5000, hq⟩ (1 : Fin 2) * 1 + 1
    rw [e21]; omega

/-- The output array after region 2, whatever the buffers held at its entry: the dense transform of the hidden features
    and the weights found there. -/
theorem array_eq (c : Dev nD) :
    (dat2 V c).arrAt 2 cfg2.N = Cert.Layers.dense (K := 128) (B := 1) (V c main_v45) (V c main_arg4) :=
  (dat2 V c).arrAt_eq_of_cover 2 _ (fun t _ => flushed_eq V c t) cover

end Cert.KernelIdeal.Region2

end
-- ==== Proof.Region3.lean ====
/-
  Region 3 (bias and logistic function), from blocks to the whole array.

  The grid has 20 points; point t fetches rows 5000 t … 5000 t + 4999 of the aggregated one-column array and the one bias,
  and writes back the same rows of the output. What the body stores at point t is, entry by entry, the logistic function
  of the aggregated entry plus the bias; the 20 blocks cover the output. So whatever the buffers hold when the region is
  entered, its output array ends at that bias layer of the two arrays found there.
-/
import proofs.«154057_j25589415150280_1_alg».proof.Proof.Gen.KernelIdeal.Frame
import proofs.«154057_j25589415150280_1_alg».proof.Proof.BodyValues
import proofs.«154057_j25589415150280_1_alg».proof.Proof.Layers
import Idealize.ShloMosaic.Lib.Pipeline.Value

set_option maxRecDepth 16384

noncomputable section

namespace Cert.KernelIdeal.Region3

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the first input's and the output's block row is the grid point; every other
    block index is zero. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the bias layer of the arrays the region finds. -/
theorem flushed_eq (c : Dev nD) (t : Fin cfg3.N) :
    (dat3 V c).flushed 2 t = ((cfg3.win 2).blk t).view.read (Elt Ideal) (Cert.Layers.biasLogistic (V c main_v73) (V c main_v74)) := by
  show (cfg3.win 2).cut (grid3.coords t) ((dat3 V c).after 2 t) = _
  rw [after3_2]
  unfold out3_2
  rw [View.canon_unit_zero zero_offsets]
  simp only [View.ld_unit_zero (S := S5000x1) zero_offsets, View.ld_unit_zero (S := S1x1) zero_offsets]
  obtain ⟨e00, e01, e10, e11, e20, e21⟩ := index_maps t
  funext j
  obtain ⟨a, b, rfl⟩ : ∃ (a : Fin 5000) (b : Fin 1), j = ix2 a b := ⟨j 0, j 1, eq_ix2 j⟩
  refine (BodyValues.biasLogistic_apply (iblk3 V c 0 t) (iblk3 V c 1 t) a b).trans ?_
  have ht : t.val < 20 := lt_of_lt_of_eq t.isLt N_3
  have hr : t.val * 5000 + a.val < 100000 := by have := a.isLt; omega
  have E2 : ((cfg3.win 2).blk t).view.emb (ix2 a b) = ix2 (⟨t.val * 5000 + a.val, hr⟩ : Fin 100000) b := by
    funext d; apply Fin.ext
    match d with
    | ⟨0, _⟩ => show win3_2.index t (0 : Fin 2) * 5000 + 1 * a.val = t.val * 5000 + a.val; omega
    | ⟨1, _⟩ => show win3_2.index t (1 : Fin 2) * 1 + 1 * b.val = b.val; omega
  have E0 : ((cfg3.win 0).blk t).view.emb (ix2 a b) = ix2 (⟨t.val * 5000 + a.val, hr⟩ : Fin 100000) b := by
    funext d; apply Fin.ext
    match d with
    | ⟨0, _⟩ => show win3_0.index t (0 : Fin 2) * 5000 + 1 * a.val = t.val * 5000 + a.val; omega
    | ⟨1, _⟩ => show win3_0.index t (1 : Fin 2) * 1 + 1 * b.val = b.val; omega
  have E1 : ((cfg3.win 1).blk t).view.emb (ix2 (0 : Fin 1) b) = ix2 (0 : Fin 1) b := by
    funext d; apply Fin.ext
    match d with
    | ⟨0, _⟩ => show win3_1.index t (0 : Fin 2) * 1 + 1 * 0 = 0; omega
    | ⟨1, _⟩ => show win3_1.index t (1 : Fin 2) * 1 + 1 * b.val = b.val; omega
  have key : ∀ (X : S100000x1.Idx → EReal) (Bv : S1x1.Idx → EReal),
      Ideal.logistic (X (((cfg3.win 0).blk t).view.emb (ix2 a b)) + Bv (((cfg3.win 1).blk t).view.emb (ix2 (0 : Fin 1) b)))
        = Cert.Layers.biasLogistic X Bv (((cfg3.win 2).blk t).view.emb (ix2 a b)) := by
    intro X Bv
    rw [E2, Cert.Layers.biasLogistic_apply, E0, E1]
  exact key (V c main_v73) (V c main_v74)

/-- An index of the output array is in point t's block iff each coordinate is in the block's range on its axis. -/
theorem mem_blk (t : Fin cfg3.N) (i : S100000x1.Idx) :
    i ∈ ((cfg3.win 2).blk t).view.set ↔ ∀ a : Fin 2, win3_2.index t a * S5000x1.size a ≤ (i a).val
      ∧ (i a).val < win3_2.index t a * S5000x1.size a + S5000x1.size a := by
  show i ∈ ((View.whole main_v75).slice (win3_2.rect t)).set ↔ _
  rw [View.set_slice_whole, Rect.mem_set_unit]
  exact Iff.rfl

/-- Every index of the output array lies in the block of the point that owns its row: row r belongs to point r / 5000. -/
theorem cover (i : S100000x1.Idx) :
    ∃ t : Fin cfg3.N, (cfg3.win 2).flush t = true ∧ i ∈ ((cfg3.win 2).blk t).view.set := by
  have hi0 : (i 0).val < 100000 := (i 0).isLt
  have hi1 : (i 1).val < 1 := (i 1).isLt
  have hq : (i 0).val / 5000 < grid3.N := by rw [N_3]; omega
  refine ⟨⟨(i 0).val / 5000, hq⟩, flush3_2 _, ?_⟩
  obtain ⟨-, -, -, -, e20, e21⟩ := index_maps ⟨(i 0).val / 5000, hq⟩
  rw [mem_blk]
  intro a
  match a with
  | ⟨0, _⟩ =>
    show win3_2.index ⟨(i 0).val / 5000, hq⟩ (0 : Fin 2) * 5000 ≤ (i 0).val
      ∧ (i 0).val < win3_2.index ⟨(i 0).val / 5000, hq⟩ (0 : Fin 2) * 5000 + 5000
    rw [e20]; show (i 0).val / 5000 * 5000 ≤ (i 0).val ∧ (i 0).val < (i 0).val / 5000 * 5000 + 5000; omega
  | ⟨1, _⟩ =>
    show win3_2.index ⟨(i 0).val / 5000, hq⟩ (1 : Fin 2) * 1 ≤ (i 1).val
      ∧ (i 1).val < win3_2.index ⟨(i 0).val / 5000, hq⟩ (1 : Fin 2) * 1 + 1
    rw [e21]; omega

/-- The output array after region 3, whatever the buffers held at its entry: the logistic function of the aggregated
    column found there plus the bias found there. -/
theorem array_eq (c : Dev nD) :
    (dat3 V c).arrAt 2 cfg3.N = Cert.Layers.biasLogistic (V c main_v73) (V c main_v74) :=
  (dat3 V c).arrAt_eq_of_cover 2 _ (fun t _ => flushed_eq V c t) cover

end Cert.KernelIdeal.Region3

end
-- ==== Proof.Boundaries.lean ====
/-
  The kernel program's buffers at each boundary of its run, as functions of the launch memory.

  The run is a fold through eight segments: two stretches of host operations, region 0, a stretch, regions 1 and 2, a
  stretch, region 3. The edge list's three derived arrays (sources and destinations with the self loops appended, and the
  inverse square roots of the degrees) are computed before region 0 and never written again; every later stretch reads
  them where the first one left them. Each region's output array is the corresponding layer of the arrays the region
  finds; each stretch between regions is the host message passing applied to the previous region's output.
-/
import proofs.«154057_j25589415150280_1_alg».proof.Proof.Gen.KernelIdeal.Frame
import proofs.«154057_j25589415150280_1_alg».proof.Proof.RefReadP
import proofs.«154057_j25589415150280_1_alg».proof.Proof.HostChain
import proofs.«154057_j25589415150280_1_alg».proof.Proof.Layers
import proofs.«154057_j25589415150280_1_alg».proof.Proof.Region0
import proofs.«154057_j25589415150280_1_alg».proof.Proof.Region1
import proofs.«154057_j25589415150280_1_alg».proof.Proof.Region2
import proofs.«154057_j25589415150280_1_alg».proof.Proof.Region3
import Idealize.ShloMosaic.Lib.StableHlo.Run
import Idealize.ShloMosaic.Lib.ValueLayout

set_option maxRecDepth 16384

noncomputable section

namespace Cert.KernelIdeal.Boundaries

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg) (c : Dev nD)

/-! ## Before region 0: the edge list's derived arrays, and the arguments as launched -/

/-- The edges' sources with the self loops appended. -/
theorem W2_src : W2 m ρ c (Proc.devRef .tc main_v3)
    = Cert.ReferenceIdeal.ReadP.val_main_v3 (F := Ideal) (m ((c.tc : Thread nD τ).loc main_arg1)) := by
  show StableHlo.after hostOps0_1 (StableHlo.after hostOps0 (fun b => (s₀ m ρ).mem ((c : Dev nD), b))) (Proc.devRef .tc main_v3) = _
  after_results
  rfl

/-- The edges' destinations with the self loops appended. -/
theorem W2_dst : W2 m ρ c (Proc.devRef .tc main_v6)
    = Cert.ReferenceIdeal.ReadP.val_main_v6 (F := Ideal) (m ((c.tc : Thread nD τ).loc main_arg1)) := by
  show StableHlo.after hostOps0_1 (StableHlo.after hostOps0 (fun b => (s₀ m ρ).mem ((c : Dev nD), b))) (Proc.devRef .tc main_v6) = _
  after_results
  rfl

set_option maxHeartbeats 4000000 in
/-- Which nodes have a positive degree, after the first stretch. -/
theorem W1_pos : W1 m ρ c (Proc.devRef .tc main_v12)
    = Cert.ReferenceIdeal.ReadP.val_main_v12 (F := Ideal) (m ((c.tc : Thread nD τ).loc main_arg1)) := by
  show StableHlo.after hostOps0 (fun b => (s₀ m ρ).mem ((c : Dev nD), b)) (Proc.devRef .tc main_v12) = _
  after_results
  rfl

set_option maxHeartbeats 4000000 in
/-- The inverse square roots of the degrees, after the first stretch. -/
theorem W1_rsqrt : W1 m ρ c (Proc.devRef .tc main_v13)
    = Cert.ReferenceIdeal.ReadP.val_main_v13 (F := Ideal) (m ((c.tc : Thread nD τ).loc main_arg1)) := by
  show StableHlo.after hostOps0 (fun b => (s₀ m ρ).mem ((c : Dev nD), b)) (Proc.devRef .tc main_v13) = _
  after_results
  rfl

/-- The zero constant the select reads, after the first stretch. -/
theorem W1_zero : W1 m ρ c (Proc.devRef .tc main_cst_2) = constant (F := Ideal) S_ .f32 0x00000000#32 := by
  show StableHlo.after hostOps0 (fun b => (s₀ m ρ).mem ((c : Dev nD), b)) (Proc.devRef .tc main_cst_2) = _
  after_results_simp <;> rfl

/-- The three operations of the select's call, as plain operations on the buffers' own types: the typed references of a
    called function carry transports along equalities of buffer types that hold by computation, and on bound values those
    transports are the identity. -/
theorem where_ops : (hostOps0_1 : List (HloOp τ sig (Elt Ideal))) =
    [ StableHlo.unary main_cst_2 main_call0_v0
        (id : (⟨S_, .f32⟩ : BufTy).Contents (Elt Ideal) → (⟨S_, .f32⟩ : BufTy).Contents (Elt Ideal)),
      StableHlo.unary main_call0_v0 main_call0_v1
        (broadcastInDim S100000 ![] bcast_S_S100000 :
          (⟨S_, .f32⟩ : BufTy).Contents (Elt Ideal) → (⟨S100000, .f32⟩ : BufTy).Contents (Elt Ideal)),
      StableHlo.ternary main_v12 main_v13 main_call0_v1 main_v14
        (select : (⟨S100000, .i1⟩ : BufTy).Contents (Elt Ideal) → (⟨S100000, .f32⟩ : BufTy).Contents (Elt Ideal)
          → (⟨S100000, .f32⟩ : BufTy).Contents (Elt Ideal) → (⟨S100000, .f32⟩ : BufTy).Contents (Elt Ideal)) ] := rfl

/-- The inverse square roots of the degrees where the degree is positive, zero elsewhere: the select of the two arrays
    above against a broadcast zero. -/
theorem W2_dis : W2 m ρ c (Proc.devRef .tc main_v14)
    = Cert.ReferenceIdeal.ReadP.val_main_v14 (F := Ideal) (m ((c.tc : Thread nD τ).loc main_arg1)) := by
  have h12 := W1_pos m ρ c
  have h13 := W1_rsqrt m ρ c
  have hz := W1_zero m ρ c
  show StableHlo.after hostOps0_1 (W1 m ρ c) (Proc.devRef .tc main_v14) = _
  rw [where_ops]
  generalize W1 m ρ c = Wc at h12 h13 hz ⊢
  after_results
  rw [h12, h13, hz]
  unfold Cert.ReferenceIdeal.ReadP.val_main_v14 Cert.ReferenceIdeal.ReadP.val_main_call0_v1 Cert.ReferenceIdeal.ReadP.val_main_call0_v0 Cert.ReferenceIdeal.ReadP.val_main_cst_2
  generalize Cert.ReferenceIdeal.ReadP.val_main_v12 (F := Ideal) (m ((c.tc : Thread nD τ).loc main_arg1)) = A
  generalize Cert.ReferenceIdeal.ReadP.val_main_v13 (F := Ideal) (m ((c.tc : Thread nD τ).loc main_arg1)) = B
  rfl

/-- The argument arrays are as launched when region 0 is entered: no host operation writes one. -/
theorem W2_arg0 : W2 m ρ c (Proc.devRef .tc main_arg0) = m ((c.tc : Thread nD τ).loc main_arg0) := by
  show StableHlo.after hostOps0_1 (StableHlo.after hostOps0 (fun b => (s₀ m ρ).mem ((c : Dev nD), b))) (Proc.devRef .tc main_arg0) = _
  after_results_simp <;> rfl
theorem W2_arg2 : W2 m ρ c (Proc.devRef .tc main_arg2) = m ((c.tc : Thread nD τ).loc main_arg2) := by
  show StableHlo.after hostOps0_1 (StableHlo.after hostOps0 (fun b => (s₀ m ρ).mem ((c : Dev nD), b))) (Proc.devRef .tc main_arg2) = _
  after_results_simp <;> rfl
theorem W2_arg3 : W2 m ρ c (Proc.devRef .tc main_arg3) = m ((c.tc : Thread nD τ).loc main_arg3) := by
  show StableHlo.after hostOps0_1 (StableHlo.after hostOps0 (fun b => (s₀ m ρ).mem ((c : Dev nD), b))) (Proc.devRef .tc main_arg3) = _
  after_results_simp <;> rfl
theorem W2_arg4 : W2 m ρ c (Proc.devRef .tc main_arg4) = m ((c.tc : Thread nD τ).loc main_arg4) := by
  show StableHlo.after hostOps0_1 (StableHlo.after hostOps0 (fun b => (s₀ m ρ).mem ((c : Dev nD), b))) (Proc.devRef .tc main_arg4) = _
  after_results_simp <;> rfl
theorem W2_arg5 : W2 m ρ c (Proc.devRef .tc main_arg5) = m ((c.tc : Thread nD τ).loc main_arg5) := by
  show StableHlo.after hostOps0_1 (StableHlo.after hostOps0 (fun b => (s₀ m ρ).mem ((c : Dev nD), b))) (Proc.devRef .tc main_arg5) = _
  after_results_simp <;> rfl

end Cert.KernelIdeal.Boundaries

end
-- ==== Proof.Fold.lean ====
/-
  The kernel program's result, read through the fold of its eight segments.

  Region 0 leaves the dense layer of the features and the first weights. The next stretch of host operations is the
  layer-1 message passing applied to that array (it reads the edge list's derived arrays where the first stretch left
  them) and a reshape of the first bias into one row. Region 1 leaves the bias layer of those two; region 2 the dense
  layer of that and the second weights. The last stretch is the layer-2 message passing applied to region 2's column, and
  a reshape of the second bias; region 3 leaves the logistic bias layer of those two, which is the result.
-/
import proofs.«154057_j25589415150280_1_alg».proof.Proof.Boundaries

set_option maxRecDepth 16384

noncomputable section

namespace Cert.KernelIdeal.Fold

open Cert.KernelIdeal Cert.KernelIdeal.Gen Cert.KernelIdeal.Boundaries
open Idealize.ShloMosaic Idealize.ShloMosaic.TcCoe Idealize.ShloMosaic.ValueIdx
open Idealize.SL.Sem Idealize.ShloMosaic.StableHlo
open Cert.ReferenceIdeal.HostChain (aggregate1 aggregate2)

variable (m : (ℓ : Loc nD τ sig) → Buf (Elt Ideal) ℓ) (ρ : Dev nD → PrngReg) (c : Dev nD)

/-! ## After region 0 -/

/-- Region 0's output: the dense layer of the features and the first weights. -/
theorem W3_dense : W3 m ρ c (Proc.devRef .tc main_v15)
    = Cert.Layers.dense (K := 64) (B := 128) (m ((c.tc : Thread nD τ).loc main_arg0)) (m ((c.tc : Thread nD τ).loc main_arg2)) :=
  (W3_arr m ρ c 2).trans ((Region0.array_eq (V2 m ρ) c).trans
    (congrArg₂ (Cert.Layers.dense (K := 64) (B := 128)) (W2_arg0 m ρ c) (W2_arg2 m ρ c)))

theorem W3_src : W3 m ρ c (Proc.devRef .tc main_v3) = Cert.ReferenceIdeal.ReadP.val_main_v3 (F := Ideal) (m ((c.tc : Thread nD τ).loc main_arg1)) :=
  (W3_of_ne m ρ c main_v3 (by decide)).trans (W2_src m ρ c)
theorem W3_dst : W3 m ρ c (Proc.devRef .tc main_v6) = Cert.ReferenceIdeal.ReadP.val_main_v6 (F := Ideal) (m ((c.tc : Thread nD τ).loc main_arg1)) :=
  (W3_of_ne m ρ c main_v6 (by decide)).trans (W2_dst m ρ c)
theorem W3_dis : W3 m ρ c (Proc.devRef .tc main_v14) = Cert.ReferenceIdeal.ReadP.val_main_v14 (F := Ideal) (m ((c.tc : Thread nD τ).loc main_arg1)) :=
  (W3_of_ne m ρ c main_v14 (by decide)).trans (W2_dis m ρ c)
theorem W3_arg3 : W3 m ρ c (Proc.devRef .tc main_arg3) = (m ((c.tc : Thread nD τ).loc main_arg3)) :=
  (W3_of_ne m ρ c main_arg3 (by decide)).trans (W2_arg3 m ρ c)
theorem W3_arg4 : W3 m ρ c (Proc.devRef .tc main_arg4) = (m ((c.tc : Thread nD τ).loc main_arg4)) :=
  (W3_of_ne m ρ c main_arg4 (by decide)).trans (W2_arg4 m ρ c)
theorem W3_arg5 : W3 m ρ c (Proc.devRef .tc main_arg5) = (m ((c.tc : Thread nD τ).loc main_arg5)) :=
  (W3_of_ne m ρ c main_arg5 (by decide)).trans (W2_arg5 m ρ c)

/-! ## After the stretch between regions 0 and 1 -/

/-- The stretch is the layer-1 message passing applied to region 0's output. -/
theorem W4_agg : W4 m ρ c (Proc.devRef .tc main_v43)
    = aggregate1 (F := Ideal) (m ((c.tc : Thread nD τ).loc main_arg1)) (W3 m ρ c (Proc.devRef .tc main_v15)) := by
  show StableHlo.after hostOps1 (W3 m ρ c) (Proc.devRef .tc main_v43) = _
  after_results_simp
  rw [W3_src m ρ c, W3_dst m ρ c, W3_dis m ρ c]
  rfl

/-- The first bias, reshaped into one row. -/
theorem W4_bias : W4 m ρ c (Proc.devRef .tc main_v44) = Cert.Layers.row (m ((c.tc : Thread nD τ).loc main_arg3)) := by
  show StableHlo.after hostOps1 (W3 m ρ c) (Proc.devRef .tc main_v44) = _
  after_results_simp
  rw [W3_arg3 m ρ c]
  funext i
  obtain ⟨u, q, rfl⟩ : ∃ (u : Fin 1) (q : Fin 128), i = ix2 u q := ⟨i 0, i 1, eq_ix2 i⟩
  exact shapeCast_a_1a_apply (a := 128) (m ((c.tc : Thread nD τ).loc main_arg3)) _ u q

theorem W4_src : W4 m ρ c (Proc.devRef .tc main_v3) = Cert.ReferenceIdeal.ReadP.val_main_v3 (F := Ideal) (m ((c.tc : Thread nD τ).loc main_arg1)) := by
  refine Eq.trans ?_ (W3_src m ρ c)
  show StableHlo.after hostOps1 (W3 m ρ c) (Proc.devRef .tc main_v3) = W3 m ρ c (Proc.devRef .tc main_v3)
  after_results_simp
theorem W4_dst : W4 m ρ c (Proc.devRef .tc main_v6) = Cert.ReferenceIdeal.ReadP.val_main_v6 (F := Ideal) (m ((c.tc : Thread nD τ).loc main_arg1)) := by
  refine Eq.trans ?_ (W3_dst m ρ c)
  show StableHlo.after hostOps1 (W3 m ρ c) (Proc.devRef .tc main_v6) = W3 m ρ c (Proc.devRef .tc main_v6)
  after_results_simp
theorem W4_dis : W4 m ρ c (Proc.devRef .tc main_v14) = Cert.ReferenceIdeal.ReadP.val_main_v14 (F := Ideal) (m ((c.tc : Thread nD τ).loc main_arg1)) := by
  refine Eq.trans ?_ (W3_dis m ρ c)
  show StableHlo.after hostOps1 (W3 m ρ c) (Proc.devRef .tc main_v14) = W3 m ρ c (Proc.devRef .tc main_v14)
  after_results_simp
theorem W4_arg4 : W4 m ρ c (Proc.devRef .tc main_arg4) = (m ((c.tc : Thread nD τ).loc main_arg4)) := by
  refine Eq.trans ?_ (W3_arg4 m ρ c)
  show StableHlo.after hostOps1 (W3 m ρ c) (Proc.devRef .tc main_arg4) = W3 m ρ c (Proc.devRef .tc main_arg4)
  after_results_simp
theorem W4_arg5 : W4 m ρ c (Proc.devRef .tc main_arg5) = (m ((c.tc : Thread nD τ).loc main_arg5)) := by
  refine Eq.trans ?_ (W3_arg5 m ρ c)
  show StableHlo.after hostOps1 (W3 m ρ c) (Proc.devRef .tc main_arg5) = W3 m ρ c (Proc.devRef .tc main_arg5)
  after_results_simp

/-! ## After regions 1 and 2 -/

/-- Region 1's output: the bias layer of the aggregated array and the bias row. -/
theorem W5_hidden : W5 m ρ c (Proc.devRef .tc main_v45)
    = Cert.Layers.biasMax (B := 128) (W4 m ρ c (Proc.devRef .tc main_v43)) (W4 m ρ c (Proc.devRef .tc main_v44)) :=
  (W5_arr m ρ c 2).trans (Region1.array_eq (V4 m ρ) c)

theorem W5_src : W5 m ρ c (Proc.devRef .tc main_v3) = Cert.ReferenceIdeal.ReadP.val_main_v3 (F := Ideal) (m ((c.tc : Thread nD τ).loc main_arg1)) :=
  (W5_of_ne m ρ c main_v3 (by decide)).trans (W4_src m ρ c)
theorem W5_dst : W5 m ρ c (Proc.devRef .tc main_v6) = Cert.ReferenceIdeal.ReadP.val_main_v6 (F := Ideal) (m ((c.tc : Thread nD τ).loc main_arg1)) :=
  (W5_of_ne m ρ c main_v6 (by decide)).trans (W4_dst m ρ c)
theorem W5_dis : W5 m ρ c (Proc.devRef .tc main_v14) = Cert.ReferenceIdeal.ReadP.val_main_v14 (F := Ideal) (m ((c.tc : Thread nD τ).loc main_arg1)) :=
  (W5_of_ne m ρ c main_v14 (by decide)).trans (W4_dis m ρ c)
theorem W5_arg4 : W5 m ρ c (Proc.devRef .tc main_arg4) = (m ((c.tc : Thread nD τ).loc main_arg4)) :=
  (W5_of_ne m ρ c main_arg4 (by decide)).trans (W4_arg4 m ρ c)
theorem W5_arg5 : W5 m ρ c (Proc.devRef .tc main_arg5) = (m ((c.tc : Thread nD τ).loc main_arg5)) :=
  (W5_of_ne m ρ c main_arg5 (by decide)).trans (W4_arg5 m ρ c)

/-- Region 2's output: the dense layer of region 1's output and the second weights. -/
theorem W6_dense : W6 m ρ c (Proc.devRef .tc main_v46)
    = Cert.Layers.dense (K := 128) (B := 1) (W5 m ρ c (Proc.devRef .tc main_v45)) (m ((c.tc : Thread nD τ).loc main_arg4)) :=
  (W6_arr m ρ c 2).trans ((Region2.array_eq (V5 m ρ) c).trans
    (congrArg (Cert.Layers.dense (K := 128) (B := 1) (W5 m ρ c (Proc.devRef .tc main_v45))) (W5_arg4 m ρ c)))

theorem W6_src : W6 m ρ c (Proc.devRef .tc main_v3) = Cert.ReferenceIdeal.ReadP.val_main_v3 (F := Ideal) (m ((c.tc : Thread nD τ).loc main_arg1)) :=
  (W6_of_ne m ρ c main_v3 (by decide)).trans (W5_src m ρ c)
theorem W6_dst : W6 m ρ c (Proc.devRef .tc main_v6) = Cert.ReferenceIdeal.ReadP.val_main_v6 (F := Ideal) (m ((c.tc : Thread nD τ).loc main_arg1)) :=
  (W6_of_ne m ρ c main_v6 (by decide)).trans (W5_dst m ρ c)
theorem W6_dis : W6 m ρ c (Proc.devRef .tc main_v14) = Cert.ReferenceIdeal.ReadP.val_main_v14 (F := Ideal) (m ((c.tc : Thread nD τ).loc main_arg1)) :=
  (W6_of_ne m ρ c main_v14 (by decide)).trans (W5_dis m ρ c)
theorem W6_arg5 : W6 m ρ c (Proc.devRef .tc main_arg5) = (m ((c.tc : Thread nD τ).loc main_arg5)) :=
  (W6_of_ne m ρ c main_arg5 (by decide)).trans (W5_arg5 m ρ c)

/-! ## After the stretch between regions 2 and 3, and after region 3 -/

/-- The stretch is the layer-2 message passing applied to region 2's output. -/
theorem W7_agg : W7 m ρ c (Proc.devRef .tc main_v73)
    = aggregate2 (F := Ideal) (m ((c.tc : Thread nD τ).loc main_arg1)) (W6 m ρ c (Proc.devRef .tc main_v46)) := by
  show StableHlo.after hostOps3 (W6 m ρ c) (Proc.devRef .tc main_v73) = _
  after_results_simp
  rw [W6_src m ρ c, W6_dst m ρ c, W6_dis m ρ c]
  rfl

/-- The second bias, reshaped into one row. -/
theorem W7_bias : W7 m ρ c (Proc.devRef .tc main_v74) = Cert.Layers.row (m ((c.tc : Thread nD τ).loc main_arg5)) := by
  show StableHlo.after hostOps3 (W6 m ρ c) (Proc.devRef .tc main_v74) = _
  after_results_simp
  rw [W6_arg5 m ρ c]
  funext i
  obtain ⟨u, q, rfl⟩ : ∃ (u : Fin 1) (q : Fin 1), i = ix2 u q := ⟨i 0, i 1, eq_ix2 i⟩
  exact shapeCast_a_1a_apply (a := 1) (m ((c.tc : Thread nD τ).loc main_arg5)) _ u q

/-- Region 3's output, the program's result: the logistic bias layer of the aggregated column and the bias. -/
theorem W8_out : W8 m ρ c (Proc.devRef .tc main_v75)
    = Cert.Layers.biasLogistic (B := 1) (W7 m ρ c (Proc.devRef .tc main_v73)) (W7 m ρ c (Proc.devRef .tc main_v74)) :=
  (W8_arr m ρ c 2).trans (Region3.array_eq (V7 m ρ) c)

/-! ## The result as one function of the arguments -/

/-- The program's result: dense, message passing, bias and maximum, dense, message passing, bias and logistic, of the
    six arguments as launched. -/
theorem result_eq : W8 m ρ c (Proc.devRef .tc main_v75)
    = Cert.Layers.biasLogistic (B := 1)
        (aggregate2 (F := Ideal) (m ((c.tc : Thread nD τ).loc main_arg1)) (Cert.Layers.dense (K := 128) (B := 1)
          (Cert.Layers.biasMax (B := 128)
            (aggregate1 (F := Ideal) (m ((c.tc : Thread nD τ).loc main_arg1)) (Cert.Layers.dense (K := 64) (B := 128) (m ((c.tc : Thread nD τ).loc main_arg0)) (m ((c.tc : Thread nD τ).loc main_arg2))))
            (Cert.Layers.row (m ((c.tc : Thread nD τ).loc main_arg3))))
          (m ((c.tc : Thread nD τ).loc main_arg4))))
        (Cert.Layers.row (m ((c.tc : Thread nD τ).loc main_arg5))) := by
  rw [W8_out, W7_agg, W7_bias, W6_dense, W5_hidden, W4_agg, W4_bias, W3_dense]

end Cert.KernelIdeal.Fold

end
-- ==== Proof.lean ====
/-
  A two-layer graph convolution: the kernel program against its plain reference, on the extended reals.

  Both programs add self loops to the edge list, count degrees, and normalise each edge by the inverse square roots of its
  endpoints' degrees; both then compute, twice, a dense transform of the node features, the normalised message passing
  (gather at the sources, scale, scatter-add at the destinations) and a bias layer: maximum with zero after the first,
  the logistic function after the second. The kernel program runs the two dense transforms and the two bias layers as
  four pipelined regions (20 blocks of 5000 nodes each) and the message passing on the host; the reference runs
  everything on the host, with dot products against the transposed weights and the sigmoid spelt out as one over one plus
  the exponential of the negated argument.

  On the extended reals the two results are one function of the six arguments: each region's output array is the
  corresponding layer of the arrays it finds (Region0 … Region3), the host stretches between the regions are the
  reference's own message passing applied to those arrays (Boundaries, Fold), and the reference's stages are the same
  layers (RefLayers): the dot products are the same finite sums, and the spelt-out sigmoid is the logistic function at
  every extended real. The ideal pass rewrote nothing, so the kernel's idealization is its own text read at the exact
  instance. No step uses that the inputs are finite.
-/
import proofs.«154057_j25589415150280_1_alg».proof.Defs
import proofs.«154057_j25589415150280_1_alg».proof.Proof.Gen.Kernel
import proofs.«154057_j25589415150280_1_alg».proof.Proof.Gen.Kernel.Skeleton
import proofs.«154057_j25589415150280_1_alg».proof.Proof.Gen.Kernel.Launch
import proofs.«154057_j25589415150280_1_alg».proof.Proof.Gen.Kernel.Points
import proofs.«154057_j25589415150280_1_alg».proof.Proof.Gen.Kernel.Frame
import proofs.«154057_j25589415150280_1_alg».proof.Proof.Gen.KernelIdeal
import proofs.«154057_j25589415150280_1_alg».proof.Proof.Gen.KernelIdeal.Skeleton
import proofs.«154057_j25589415150280_1_alg».proof.Proof.Gen.KernelIdeal.Launch
import proofs.«154057_j25589415150280_1_alg».proof.Proof.Gen.KernelIdeal.Points
import proofs.«154057_j25589415150280_1_alg».proof.Proof.Gen.KernelIdeal.Frame
import proofs.«154057_j25589415150280_1_alg».proof.Proof.Gen.ReferenceIdeal
import proofs.«154057_j25589415150280_1_alg».proof.Proof.Gen.Pre_finite_inputs
import proofs.«154057_j25589415150280_1_alg».proof.Proof.RefRunP
import proofs.«154057_j25589415150280_1_alg».proof.Proof.RefReadP
import proofs.«154057_j25589415150280_1_alg».proof.Proof.RefLayers
import proofs.«154057_j25589415150280_1_alg».proof.Proof.ResultRun
import proofs.«154057_j25589415150280_1_alg».proof.Proof.Fold
import Idealize.ShloMosaic.Adequacy
import Idealize.ShloMosaic.Init

noncomputable section

namespace Cert.Proof

open Idealize.ShloMosaic Idealize.SL.Sem

/-- The common result: the network's layers around the host message passing, of the kernel program's argument arrays. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v75) :=
  Cert.Layers.biasLogistic (B := 1)
    (Cert.ReferenceIdeal.HostChain.aggregate2 (F := Ideal) (m ((c.tc : Thread Cert.KernelIdeal.nD Cert.KernelIdeal.τ).loc Cert.KernelIdeal.main_arg1)) (Cert.Layers.dense (K := 128) (B := 1)
      (Cert.Layers.biasMax (B := 128)
        (Cert.ReferenceIdeal.HostChain.aggregate1 (F := Ideal) (m ((c.tc : Thread Cert.KernelIdeal.nD Cert.KernelIdeal.τ).loc Cert.KernelIdeal.main_arg1))
          (Cert.Layers.dense (K := 64) (B := 128) (m ((c.tc : Thread Cert.KernelIdeal.nD Cert.KernelIdeal.τ).loc Cert.KernelIdeal.main_arg0)) (m ((c.tc : Thread Cert.KernelIdeal.nD Cert.KernelIdeal.τ).loc Cert.KernelIdeal.main_arg2))))
        (Cert.Layers.row (m ((c.tc : Thread Cert.KernelIdeal.nD Cert.KernelIdeal.τ).loc Cert.KernelIdeal.main_arg3))))
      (m ((c.tc : Thread Cert.KernelIdeal.nD Cert.KernelIdeal.τ).loc Cert.KernelIdeal.main_arg4))))
    (Cert.Layers.row (m ((c.tc : Thread Cert.KernelIdeal.nD Cert.KernelIdeal.τ).loc Cert.KernelIdeal.main_arg5)))

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end at the common result: the kernel program by its run read
    through the fold of its segments, the reference by its run read stage by stage. -/
theorem algebraic : Cert.algebraic_KernelIdeal_ReferenceIdeal := by
  intro m ρ m' ρ' _ hagree
  refine ⟨result m, ?_, ?_⟩
  · exact (θ_run Cert.KernelIdeal.defs _ _).mono
      (fun r h c => ⟨(h c).1.trans (Cert.KernelIdeal.Fold.result_eq m ρ c), (h c).2⟩) (Cert.KernelIdeal.ResultRun.run_result m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5⟩ := hagree c
    rw [Cert.ReferenceIdeal.ReadP.val_main_v86_eq, Cert.ReferenceIdeal.Layered.value_eq, h0, h1, h2, h3, h4, h5]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
